-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  main_v3
-- ==== Kernel.lean ====
abbrev S8192x64 : Shape := ⟨2, ![8192, 64]⟩
abbrev S8192x8192 : Shape := ⟨2, ![8192, 8192]⟩
abbrev S1024x64 : Shape := ⟨2, ![1024, 64]⟩
abbrev S1024x1024 : Shape := ⟨2, ![1024, 1024]⟩
abbrev S1024 : Shape := ⟨1, ![1024]⟩
abbrev S1024x1 : Shape := ⟨2, ![1024, 1]⟩
abbrev S64x1024 : Shape := ⟨2, ![64, 1024]⟩
abbrev S1x1024 : Shape := ⟨2, ![1, 1024]⟩

abbrev nBuf : Space → Nat
  | .hbm => 2
  | .vmem => 6
  | .smem => 0
  | _ => 0

abbrev bufTy : (tb : Table) → Fin (tcTables nBuf tb) → BufTy
  | .hbm, ⟨0, _⟩ => ⟨S8192x64, .f32⟩
  | .hbm, ⟨1, _⟩ => ⟨S8192x8192, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x1024, .f32⟩
  | .local _ .vmem, ⟨5, _⟩ => ⟨S1024x1024, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x64_S1024x64_0_0 : ∀ a, (![0, 0] : Fin 2 → Nat) a + S1024x64.size a ≤ S1024x64.size a
  h_S1024x64 : 0 < S1024x64.numel
  reduces_S1024x64_S1024 : S1024x64.Reduces [1] S1024
  shapeCasts_S1024_S1024x1 : S1024.ShapeCasts S1024x1
  transposes_S1024x64_p1_0_S64x1024 : S1024x64.Transposes [1, 0] S64x1024
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S64x8192 : Shape := ⟨2, ![64, 8192]⟩

abbrev nBuf : Space → Nat
  | .hbm => 22
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S1x8192, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S64x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x64_S64x8192_1_0 : S8192x64.Transposes [1, 0] S64x8192
  bcast_S_S8192x8192 : S_.BroadcastsInDim S8192x8192 (![] : Fin 0 → Fin S8192x8192.rank)
  dot_S8192x64_S64x8192_S8192x8192_1_0_0_1_n_n_wf : DotDims.WF S8192x64 S64x8192 S8192x8192 [1] [0] [0] [1] [] []

variable [Facts₀]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.GramBodyBits.lean ====
/-
  The run of the Gram-tile kernel, at any float instance.

  The kernel's grid is 8 × 8; at point (a, b) it is handed rows [1024a, 1024a + 1024) of the input
  through its first window, rows [1024b, 1024b + 1024) of THE SAME input through its second, and writes
  tile (a, b) of the 8192 × 8192 result. Both input windows read one array, so the array's ownership
  is dealt between them in two halves; the result array is held outright.

  The body reads both row blocks whole, computes a 1024 × 1024 tile from them (`tile`) and stores it
  whole, so: each input window's buffer holds its row block at every point, whether the pipeline fetched it
  there or not; the output buffer holds `tile` of the two row blocks; nothing is kept between points.
  From this the region runs to the end with the input unchanged and the result assembled from the tiles
  written back (`run_region`), and in particular the program's frame holds (`frame`).
-/
import proofs.«171954_j65481071397883_2_alg».proof.Proof.Gen.Kernel.Launch
import proofs.«171954_j65481071397883_2_alg».proof.Proof.Gen.Kernel.Skeleton
import proofs.«171954_j65481071397883_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.GramFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its region -/

/-- What the core's buffers hold when the region is entered: the launch contents (the program is the region alone). -/
abbrev entry (c : Dev nD) (b : Ref sig .tc) : Buf (Elt F) ((c : Thread nD τ).loc b) := m ((c : Thread nD τ).loc b)

/-- The program is its one region. -/
theorem main_is_region (𝒱₀ : Variants) :
    Pipeline.HMain (Ix := Unit) (Name := ℕ) (U := UR sig nD τ) (Lvl := ℕ) cfgs 0 defs₀ 𝒱₀ m (main (F := F)) (entry m) :=
  Pipeline.hmain_region cfgs 0 defs₀ 𝒱₀ m main fun c => (main_chain c).trans rfl

/-! ## A window's block at a grid point -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- The first input window's buffer holds its block at every point — fetched there, or still there from the last
    point that fetched it, the block index not having moved — for any proof data over the entry arrays whose body
    leaves the block in place. -/
theorem rows_held0 {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The second input window's likewise. -/
theorem rows_held1 {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the output buffer -/

abbrev rowsRect : Rect S1024x64 := Rect.unit (s := S1024x64) ![0, 0] S1024x64.size inb_S1024x64_S1024x64_0_0
abbrev tileRect : Rect S1024x1024 := Rect.unit (s := S1024x1024) ![0, 0] S1024x1024.size inb_S1024x1024_S1024x1024_0_0

/-- The output buffer after the body, from the two row blocks: its one store, of the whole buffer. -/
def tile (x0 : Vec F S1024x64 .f32) (x1 : Vec F S1024x64 .f32) : Vec F S1024x1024 .f32 :=
  View.canon [⟨tileRect, k0_pay1 (View.ld x0 rowsRect) (View.ld x1 rowsRect)⟩]

/-- The store is of the whole buffer, so it covers it. -/
theorem tile_cover (p0 : Vec F S1024x1024 .f32) (y : S1024x1024.Idx) :
    ∃ pc ∈ ([⟨tileRect, p0⟩] : List (View.Piece (Elt F) S1024x1024 .f32)), y ∈ pc.1.set :=
  ⟨_, List.mem_singleton.mpr rfl, View.mem_set_unit_zero (funext fun a => by match a with | ⟨0, _⟩ => rfl | ⟨1, _⟩ => rfl) inb_S1024x1024_S1024x1024_0_0 y⟩

/-- The tile is the body's arithmetic of the two row blocks. -/
theorem tile_eq (x0 : Vec F S1024x64 .f32) (x1 : Vec F S1024x64 .f32) : tile x0 x1 = k0_pay1 x0 x1 := by
  have hz2 : (![0, 0] : Fin 2 → Nat) = fun _ => 0 := funext fun a => by match a with | ⟨0, _⟩ => rfl | ⟨1, _⟩ => rfl
  unfold tile
  rw [View.canon_unit_zero hz2]
  simp only [View.ld_unit_zero (S := S1024x64) hz2]

/-! ## The body's triple -/

set_option maxHeartbeats 1000000 in
/-- On whole staging buffers, the two inputs' at read contents `x0`, `x1` and the output's at anything, the body runs
    to its return holding the inputs' as they were and the output's at `tile x0 x1`. -/
theorem body_runs (c : Dev nD) (E : Set ℕ) (i : grid0.Coords) (arg2 : Memref sig .tc .vmem S1024x64 .f32) (harg2 : arg2.IsWhole) (arg3 : Memref sig .tc .vmem S1024x64 .f32) (harg3 : arg3.IsWhole) (arg4 : Memref sig .tc .vmem S1024x1024 .f32) (harg4 : arg4.IsWhole)
    (x0 : Vec F S1024x64 .f32) (x1 : Vec F S1024x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (tile x0 x1)) -∗ K ⟨⟩))
      ⊢ wp frame (wpE (defs₀ (F := F)) Variants.none c none) E (cc0__gram_kernel i arg2 harg2 arg3 harg3 arg4 harg4) K := by
  simp only [cc0__gram_kernel_eq_skeleton]; unfold cc0__gram_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_cover _)

end Cert.Kernel.GramFrame

end
-- ==== Proof.GramRunBits.lean ====
/-
  The region's run: the proof data of the Gram-tile pipeline, the body's obligation at every grid point,
  the dealing of the shared input array between the two windows that read it, and the launch.

  The input array is read through two windows, so neither can hold it outright: the first holds the left half
  of its ownership and the second the right half, which together are the whole (`deal_arrays`). Reading needs
  no more than a part, and nothing writes the input. The result array has one window and is held outright.
-/
import proofs.«171954_j65481071397883_2_alg».proof.Proof.GramBodyBits

set_option maxRecDepth 16384

noncomputable section

namespace Cert.Kernel.GramFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The pipeline's proof data on core `c`: the arrays as the region finds them; after the body at point `t` each
    input buffer at its row block and the output buffer at the tile of the two row blocks; between points only the
    core's other scoped buffers (there are none); the input array's ownership in two halves, one per window. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => tile (blockAt m c 0 t) (blockAt m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = entry m c (Pipeline.arrRef spec0 w) := by
  dsimp only [dats]

/-- Between points the proof data keeps only the core's other scoped buffers. -/
theorem kept_eq (c : Dev nD) (t : Fin (cfg0.N + 1)) :
    (dats m 0 c).Φ t = Pipeline.scopedRest (Ix := Unit) (Name := ℕ) (U := UR sig nD τ) (Lvl := ℕ) (Val := Elt F) spec0 c := rfl

theorem after_rows0 (c : Dev nD) (t : Fin cfg0.N) : (dats m 0 c).after 0 t = blockAt m c 0 t := by dsimp only [dats]
theorem after_rows1 (c : Dev nD) (t : Fin cfg0.N) : (dats m 0 c).after 1 t = blockAt m c 1 t := by dsimp only [dats]
theorem after_tile (c : Dev nD) (t : Fin cfg0.N) : (dats m 0 c).after 2 t = tile (blockAt m c 0 t) (blockAt m c 1 t) := by
  dsimp only [dats]

/-- Each input buffer holds its row block at every point. -/
theorem before_rows0 (c : Dev nD) (t : Fin cfg0.N) (d) : (dats m 0 c).before 0 t d = blockAt m c 0 t :=
  rows_held0 m (dats m 0 c) (A_eq m c 0) (after_rows0 m c) t d
theorem before_rows1 (c : Dev nD) (t : Fin cfg0.N) (d) : (dats m 0 c).before 1 t d = blockAt m c 1 t :=
  rows_held1 m (dats m 0 c) (A_eq m c 1) (after_rows1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input buffers hold their row blocks, so `body_runs` applies; what is kept between
    points and what the core owes pass through untouched. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows0, before_rows1]
  rw [show (dats m 0 c).Φ t.succ = (dats m 0 c).Φ t.castSucc from rfl,
    show (dats m 0 c).owesAt () t.succ = (dats m 0 c).owesAt () t.castSucc from rfl,
    after_rows0, after_rows1, after_tile]
  iintro ⟨HΦ, Ho, ⟨%d0, H0⟩, ⟨%d1, H1⟩, ⟨%d2, H2⟩⟩
  iapply (body_runs c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation (c : Dev nD) : BodyObligation (dats (F := F) m 0 c) (defs₀ (F := F)) Variants.none () Set.univ := fun t => by
  rw [bigSep_W0, bigSep_W0]
  exact body_at m c t

/-! ## The shared input array, dealt between its two windows -/

/-- The buffers behind the windows' arrays are the input and the result. -/
theorem arrays_are : (Finset.univ.image (Pipeline.arrRef spec0) : Finset (Ref sig .tc)) = {main_arg0, main_v0} := by decide

/-- The input held whole splits into its left half for the first window and its right half for the second; the
    result, held whole, is the third window's. -/
theorem deal_arrays (c : Dev nD) :
    (Pipeline.arrBufs (Ix := Unit) (Name := ℕ) (U := UR sig nD τ) (Lvl := ℕ) spec0 c (entry m c) : sProp 𝕄)
      ⊢ (dats m 0 c).arrays ((dats m 0 c).arrAt · 0) := by
  unfold Pipeline.arrBufs Dat.arrays
  rw [arrays_are, bigSep_W0, bigSep_insert (by decide), bigSep_singleton]
  have e0 : (((cfg0.win 0).arr.view.loc (c.tc : Thread nD τ)) ↦[(cfg0.win 0).arr.view.set]{(dats m 0 c).share 0} (dats m 0 c).arrAt 0 0 : sProp 𝕄)
      = (((c.tc : Thread nD τ).loc main_arg0) ↦{fullShare.left} entry m c main_arg0) := by
    rw [(arr_whole0 0).set_eq_univ]; rfl
  have e1 : (((cfg0.win 1).arr.view.loc (c.tc : Thread nD τ)) ↦[(cfg0.win 1).arr.view.set]{(dats m 0 c).share 1} (dats m 0 c).arrAt 1 0 : sProp 𝕄)
      = (((c.tc : Thread nD τ).loc main_arg0) ↦{fullShare.right} entry m c main_arg0) := by
    rw [(arr_whole0 1).set_eq_univ]; rfl
  have e2 : (((cfg0.win 2).arr.view.loc (c.tc : Thread nD τ)) ↦[(cfg0.win 2).arr.view.set]{(dats m 0 c).share 2} (dats m 0 c).arrAt 2 0 : sProp 𝕄)
      = (((c.tc : Thread nD τ).loc main_v0) ↦{fullShare} entry m c main_v0) := by
    rw [(arr_whole0 2).set_eq_univ]; rfl
  rw [e0, e1, e2]
  refine (show iprop((((c.tc : Thread nD τ).loc main_arg0) ↦{fullShare} entry m c main_arg0)
      ∗ (((c.tc : Thread nD τ).loc main_v0) ↦{fullShare} entry m c main_v0)) ⊢ (_ : sProp 𝕄) from ?_)
  iintro ⟨Ha, Hv⟩
  ihave Hs := (pointsTo_share (PosShare.mem_left_op_right fullShare)).1 $$ Ha
  icases Hs with ⟨Hl, Hr⟩
  isplitl [Hl]; · iexact Hl
  isplitl [Hr]; · iexact Hr
  iexact Hv

/-! ## The run -/

/-- What the run ends in: every window's array at what the write-backs leave of it. -/
def RegionPost (r : PUnit × MemSt nD τ sig (Elt F)) : Prop :=
  ∀ c : Dev nD, ∀ w : Fin cfg0.W, r.2.mem (((cfgs 0).spec w).arr.view.loc (c.tc : Thread nD τ)) = (dats m 0 c).arrAt w cfg0.N

set_option backward.isDefEq.respectTransparency.types false in
/-- From any memory with every semaphore at zero, every weakly fair execution of the program terminates, with every
    window's array at what the pipeline library computes from the proof data. -/
theorem run_region : θ_run defs (onTc (τ := τ) (main (F := F))) (s₀ m ρ) (RegionPost m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := .rfl)
    (V := entry m) (hmain := main_is_region m Variants.none)
    (hsplit := deal_arrays m)
    (X := fun _ => iprop(emp)) (Y := fun _ => iprop(emp))
    (Z := fun c => Pipeline.unscopedRest (Ix := Unit) (Name := ℕ) (U := UR sig nD τ) (Lvl := ℕ) spec0 c (entry m c))
    (hX := fun c => by
      iintro H
      isplitr; · iempintro
      iexact H)
    (hin := fun c => by
      rw [kept_eq]
      iintro ⟨-, H⟩
      iexact H)
    (hout := fun c => by
      rw [kept_eq]
      iintro H
      isplitr; · iempintro
      iexact H)
    (QY := fun _ _ => True)
    (hY := fun c s' => by
      iintro ⟨-, -, HSI⟩
      imodintro
      isplitr; · ipureintro; trivial
      iexact HSI)
    (hQ := fun s h c w => (h c).1 w)

/-- info: 'Cert.Kernel.GramFrame.run_region' depends on axioms: [propext, Classical.choice, Quot.sound] -/
#guard_msgs in #print axioms run_region

/-- The input array ends as it began: an input window's array is never written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c 0).trans (((dats m 0 c).arrAt_in 0 rfl _).trans (A_eq m c 0)))) (run_region m ρ)

end Cert.Kernel.GramFrame

end
-- ==== Proof.GramBody.lean ====
/-
  The run of the Gram-tile kernel, at any float instance.

  The kernel's grid is 8 × 8; at point (a, b) it is handed rows [1024a, 1024a + 1024) of the input
  through its first window, rows [1024b, 1024b + 1024) of THE SAME input through its second, and writes
  tile (a, b) of the 8192 × 8192 result. Both input windows read one array, so the array's ownership
  is dealt between them in two halves; the result array is held outright.

  The body reads both row blocks whole, computes a 1024 × 1024 tile from them (`tile`) and stores it
  whole, so: each input window's buffer holds its row block at every point, whether the pipeline fetched it
  there or not; the output buffer holds `tile` of the two row blocks; nothing is kept between points.
  From this the region runs to the end with the input unchanged and the result assembled from the tiles
  written back (`run_region`), and in particular the program's frame holds (`frame`).
-/
import proofs.«171954_j65481071397883_2_alg».proof.Proof.Gen.KernelIdeal.Launch
import proofs.«171954_j65481071397883_2_alg».proof.Proof.Gen.KernelIdeal.Skeleton
import proofs.«171954_j65481071397883_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.GramFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its region -/

/-- What the core's buffers hold when the region is entered: the launch contents (the program is the region alone). -/
abbrev entry (c : Dev nD) (b : Ref sig .tc) : Buf (Elt F) ((c : Thread nD τ).loc b) := m ((c : Thread nD τ).loc b)

/-- The program is its one region. -/
theorem main_is_region (𝒱₀ : Variants) :
    Pipeline.HMain (Ix := Unit) (Name := ℕ) (U := UR sig nD τ) (Lvl := ℕ) cfgs 0 defs₀ 𝒱₀ m (main (F := F)) (entry m) :=
  Pipeline.hmain_region cfgs 0 defs₀ 𝒱₀ m main fun c => (main_chain c).trans rfl

/-! ## A window's block at a grid point -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- The first input window's buffer holds its block at every point — fetched there, or still there from the last
    point that fetched it, the block index not having moved — for any proof data over the entry arrays whose body
    leaves the block in place. -/
theorem rows_held0 {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The second input window's likewise. -/
theorem rows_held1 {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the output buffer -/

abbrev rowsRect : Rect S1024x64 := Rect.unit (s := S1024x64) ![0, 0] S1024x64.size inb_S1024x64_S1024x64_0_0
abbrev tileRect : Rect S1024x1024 := Rect.unit (s := S1024x1024) ![0, 0] S1024x1024.size inb_S1024x1024_S1024x1024_0_0

/-- The output buffer after the body, from the two row blocks: its one store, of the whole buffer. -/
def tile (x0 : Vec F S1024x64 .f32) (x1 : Vec F S1024x64 .f32) : Vec F S1024x1024 .f32 :=
  View.canon [⟨tileRect, k0_pay1 (View.ld x0 rowsRect) (View.ld x1 rowsRect)⟩]

/-- The store is of the whole buffer, so it covers it. -/
theorem tile_cover (p0 : Vec F S1024x1024 .f32) (y : S1024x1024.Idx) :
    ∃ pc ∈ ([⟨tileRect, p0⟩] : List (View.Piece (Elt F) S1024x1024 .f32)), y ∈ pc.1.set :=
  ⟨_, List.mem_singleton.mpr rfl, View.mem_set_unit_zero (funext fun a => by match a with | ⟨0, _⟩ => rfl | ⟨1, _⟩ => rfl) inb_S1024x1024_S1024x1024_0_0 y⟩

/-- The tile is the body's arithmetic of the two row blocks. -/
theorem tile_eq (x0 : Vec F S1024x64 .f32) (x1 : Vec F S1024x64 .f32) : tile x0 x1 = k0_pay1 x0 x1 := by
  have hz2 : (![0, 0] : Fin 2 → Nat) = fun _ => 0 := funext fun a => by match a with | ⟨0, _⟩ => rfl | ⟨1, _⟩ => rfl
  unfold tile
  rw [View.canon_unit_zero hz2]
  simp only [View.ld_unit_zero (S := S1024x64) hz2]

/-! ## The body's triple -/

set_option maxHeartbeats 1000000 in
/-- On whole staging buffers, the two inputs' at read contents `x0`, `x1` and the output's at anything, the body runs
    to its return holding the inputs' as they were and the output's at `tile x0 x1`. -/
theorem body_runs (c : Dev nD) (E : Set ℕ) (i : grid0.Coords) (arg2 : Memref sig .tc .vmem S1024x64 .f32) (harg2 : arg2.IsWhole) (arg3 : Memref sig .tc .vmem S1024x64 .f32) (harg3 : arg3.IsWhole) (arg4 : Memref sig .tc .vmem S1024x1024 .f32) (harg4 : arg4.IsWhole)
    (x0 : Vec F S1024x64 .f32) (x1 : Vec F S1024x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (tile x0 x1)) -∗ K ⟨⟩))
      ⊢ wp frame (wpE (defs₀ (F := F)) Variants.none c none) E (cc0__gram_kernel i arg2 harg2 arg3 harg3 arg4 harg4) K := by
  simp only [cc0__gram_kernel_eq_skeleton]; unfold cc0__gram_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_cover _)

end Cert.KernelIdeal.GramFrame

end
-- ==== Proof.GramRun.lean ====
/-
  The region's run: the proof data of the Gram-tile pipeline, the body's obligation at every grid point,
  the dealing of the shared input array between the two windows that read it, and the launch.

  The input array is read through two windows, so neither can hold it outright: the first holds the left half
  of its ownership and the second the right half, which together are the whole (`deal_arrays`). Reading needs
  no more than a part, and nothing writes the input. The result array has one window and is held outright.
-/
import proofs.«171954_j65481071397883_2_alg».proof.Proof.GramBody

set_option maxRecDepth 16384

noncomputable section

namespace Cert.KernelIdeal.GramFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The pipeline's proof data on core `c`: the arrays as the region finds them; after the body at point `t` each
    input buffer at its row block and the output buffer at the tile of the two row blocks; between points only the
    core's other scoped buffers (there are none); the input array's ownership in two halves, one per window. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => tile (blockAt m c 0 t) (blockAt m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = entry m c (Pipeline.arrRef spec0 w) := by
  dsimp only [dats]

/-- Between points the proof data keeps only the core's other scoped buffers. -/
theorem kept_eq (c : Dev nD) (t : Fin (cfg0.N + 1)) :
    (dats m 0 c).Φ t = Pipeline.scopedRest (Ix := Unit) (Name := ℕ) (U := UR sig nD τ) (Lvl := ℕ) (Val := Elt F) spec0 c := rfl

theorem after_rows0 (c : Dev nD) (t : Fin cfg0.N) : (dats m 0 c).after 0 t = blockAt m c 0 t := by dsimp only [dats]
theorem after_rows1 (c : Dev nD) (t : Fin cfg0.N) : (dats m 0 c).after 1 t = blockAt m c 1 t := by dsimp only [dats]
theorem after_tile (c : Dev nD) (t : Fin cfg0.N) : (dats m 0 c).after 2 t = tile (blockAt m c 0 t) (blockAt m c 1 t) := by
  dsimp only [dats]

/-- Each input buffer holds its row block at every point. -/
theorem before_rows0 (c : Dev nD) (t : Fin cfg0.N) (d) : (dats m 0 c).before 0 t d = blockAt m c 0 t :=
  rows_held0 m (dats m 0 c) (A_eq m c 0) (after_rows0 m c) t d
theorem before_rows1 (c : Dev nD) (t : Fin cfg0.N) (d) : (dats m 0 c).before 1 t d = blockAt m c 1 t :=
  rows_held1 m (dats m 0 c) (A_eq m c 1) (after_rows1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input buffers hold their row blocks, so `body_runs` applies; what is kept between
    points and what the core owes pass through untouched. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows0, before_rows1]
  rw [show (dats m 0 c).Φ t.succ = (dats m 0 c).Φ t.castSucc from rfl,
    show (dats m 0 c).owesAt () t.succ = (dats m 0 c).owesAt () t.castSucc from rfl,
    after_rows0, after_rows1, after_tile]
  iintro ⟨HΦ, Ho, ⟨%d0, H0⟩, ⟨%d1, H1⟩, ⟨%d2, H2⟩⟩
  iapply (body_runs c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation (c : Dev nD) : BodyObligation (dats (F := F) m 0 c) (defs₀ (F := F)) Variants.none () Set.univ := fun t => by
  rw [bigSep_W0, bigSep_W0]
  exact body_at m c t

/-! ## The shared input array, dealt between its two windows -/

/-- The buffers behind the windows' arrays are the input and the result. -/
theorem arrays_are : (Finset.univ.image (Pipeline.arrRef spec0) : Finset (Ref sig .tc)) = {main_arg0, main_v0} := by decide

/-- The input held whole splits into its left half for the first window and its right half for the second; the
    result, held whole, is the third window's. -/
theorem deal_arrays (c : Dev nD) :
    (Pipeline.arrBufs (Ix := Unit) (Name := ℕ) (U := UR sig nD τ) (Lvl := ℕ) spec0 c (entry m c) : sProp 𝕄)
      ⊢ (dats m 0 c).arrays ((dats m 0 c).arrAt · 0) := by
  unfold Pipeline.arrBufs Dat.arrays
  rw [arrays_are, bigSep_W0, bigSep_insert (by decide), bigSep_singleton]
  have e0 : (((cfg0.win 0).arr.view.loc (c.tc : Thread nD τ)) ↦[(cfg0.win 0).arr.view.set]{(dats m 0 c).share 0} (dats m 0 c).arrAt 0 0 : sProp 𝕄)
      = (((c.tc : Thread nD τ).loc main_arg0) ↦{fullShare.left} entry m c main_arg0) := by
    rw [(arr_whole0 0).set_eq_univ]; rfl
  have e1 : (((cfg0.win 1).arr.view.loc (c.tc : Thread nD τ)) ↦[(cfg0.win 1).arr.view.set]{(dats m 0 c).share 1} (dats m 0 c).arrAt 1 0 : sProp 𝕄)
      = (((c.tc : Thread nD τ).loc main_arg0) ↦{fullShare.right} entry m c main_arg0) := by
    rw [(arr_whole0 1).set_eq_univ]; rfl
  have e2 : (((cfg0.win 2).arr.view.loc (c.tc : Thread nD τ)) ↦[(cfg0.win 2).arr.view.set]{(dats m 0 c).share 2} (dats m 0 c).arrAt 2 0 : sProp 𝕄)
      = (((c.tc : Thread nD τ).loc main_v0) ↦{fullShare} entry m c main_v0) := by
    rw [(arr_whole0 2).set_eq_univ]; rfl
  rw [e0, e1, e2]
  refine (show iprop((((c.tc : Thread nD τ).loc main_arg0) ↦{fullShare} entry m c main_arg0)
      ∗ (((c.tc : Thread nD τ).loc main_v0) ↦{fullShare} entry m c main_v0)) ⊢ (_ : sProp 𝕄) from ?_)
  iintro ⟨Ha, Hv⟩
  ihave Hs := (pointsTo_share (PosShare.mem_left_op_right fullShare)).1 $$ Ha
  icases Hs with ⟨Hl, Hr⟩
  isplitl [Hl]; · iexact Hl
  isplitl [Hr]; · iexact Hr
  iexact Hv

/-! ## The run -/

/-- What the run ends in: every window's array at what the write-backs leave of it. -/
def RegionPost (r : PUnit × MemSt nD τ sig (Elt F)) : Prop :=
  ∀ c : Dev nD, ∀ w : Fin cfg0.W, r.2.mem (((cfgs 0).spec w).arr.view.loc (c.tc : Thread nD τ)) = (dats m 0 c).arrAt w cfg0.N

set_option backward.isDefEq.respectTransparency.types false in
/-- From any memory with every semaphore at zero, every weakly fair execution of the program terminates, with every
    window's array at what the pipeline library computes from the proof data. -/
theorem run_region : θ_run defs (onTc (τ := τ) (main (F := F))) (s₀ m ρ) (RegionPost m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := .rfl)
    (V := entry m) (hmain := main_is_region m Variants.none)
    (hsplit := deal_arrays m)
    (X := fun _ => iprop(emp)) (Y := fun _ => iprop(emp))
    (Z := fun c => Pipeline.unscopedRest (Ix := Unit) (Name := ℕ) (U := UR sig nD τ) (Lvl := ℕ) spec0 c (entry m c))
    (hX := fun c => by
      iintro H
      isplitr; · iempintro
      iexact H)
    (hin := fun c => by
      rw [kept_eq]
      iintro ⟨-, H⟩
      iexact H)
    (hout := fun c => by
      rw [kept_eq]
      iintro H
      isplitr; · iempintro
      iexact H)
    (QY := fun _ _ => True)
    (hY := fun c s' => by
      iintro ⟨-, -, HSI⟩
      imodintro
      isplitr; · ipureintro; trivial
      iexact HSI)
    (hQ := fun s h c w => (h c).1 w)

/-- info: 'Cert.KernelIdeal.GramFrame.run_region' depends on axioms: [propext, Classical.choice, Quot.sound] -/
#guard_msgs in #print axioms run_region

/-- The input array ends as it began: an input window's array is never written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c 0).trans (((dats m 0 c).arrAt_in 0 rfl _).trans (A_eq m c 0)))) (run_region m ρ)

end Cert.KernelIdeal.GramFrame

end
-- ==== Proof.LibColumnBroadcast.lean ====
/-
  One column broadcast over many.

  An `[a, 1]` array broadcast to `[a, b]` repeats its one column: the entry at `(p, c)` is the operand's entry at
  `(p, 0)`, whatever the column `c`. (The row form, `[1, b]` to `[a, b]`, is the library's
  `broadcastTo_1b_ab_apply`; this is its transpose.)
-/
import Idealize.ShloMosaic.Lib.Pipeline.Value
import Idealize.ShloMosaic.Lib.ValueIdx

namespace Cert.LibColumnBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.LibColumnCast.lean ====
/-
  A vector cast to a column.

  An `[a]` array cast to `[a, 1]` (what a row reduction that keeps its axis produces) has the operand's entries down
  its one column: the entry at `(i, u)` is the operand's entry at `i`, whatever the unit coordinate `u`. Both indices
  have the same row-major position, `i = i · 1 + u` with `u = 0`.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.GramSpec.lean ====
/-
  The Gaussian Gram matrix of the rows of an 8192 × 64 array, on the extended reals.

  For rows x_i, x_j the entry is exp(c · max((|x_i|² + |x_j|²) − two · ⟨x_i, x_j⟩, zero)), the squared distance
  written out through the inner product and cut off below at zero. |x_i|² and ⟨x_i, x_j⟩ are sums over the 64
  coordinates; the three constants c, two and zero are kept as the 32-bit float words both programs spell
  (-0.5, 2.0 and 0.0), which are never evaluated: the same word denotes the same number on both sides.
-/
import Idealize.ShloMosaic.PureOps.Ideal
import Idealize.ShloMosaic.Lib.ValueIdx

noncomputable section

open scoped BigOperators

namespace Cert.GramSpec

open Idealize.ShloMosaic Idealize.ShloMosaic.ValueIdx

/-- The squared length of row `i`. -/
def sqNorm (x : (⟨2, ![8192, 64]⟩ : Shape).Idx → EReal) (i : Fin 8192) : EReal :=
  ∑ k : Fin 64, x (ix2 i k) * x (ix2 i k)

/-- The inner product of rows `i` and `j`. -/
def rowDot (x : (⟨2, ![8192, 64]⟩ : Shape).Idx → EReal) (i j : Fin 8192) : EReal :=
  ∑ k : Fin 64, x (ix2 i k) * x (ix2 j k)

/-- One entry of the Gram matrix from the two squared lengths `a`, `b` and the inner product `d`. -/
def kernelOf (a b d : EReal) : EReal :=
  Ideal.exp (Ideal.ofBits .f32 0xBF000000#32 * max ((a + b) - Ideal.ofBits .f32 0x40000000#32 * d) (Ideal.ofBits .f32 0x00000000#32))

/-- The Gram matrix, index by index. -/
def gram (x : (⟨2, ![8192, 64]⟩ : Shape).Idx → EReal) : (⟨2, ![8192, 8192]⟩ : Shape).Idx → EReal :=
  fun y => kernelOf (sqNorm x (y 0)) (sqNorm x (y 1)) (rowDot x (y 0) (y 1))

theorem gram_apply (x : (⟨2, ![8192, 64]⟩ : Shape).Idx → EReal) (i j : Fin 8192) :
    gram x (ix2 i j) = kernelOf (sqNorm x i) (sqNorm x j) (rowDot x i j) := rfl

end Cert.GramSpec

end
-- ==== Proof.GramTile.lean ====
/-
  One entry of the tile the body computes, on the extended reals.

  From a block v0 of 1024 rows and a block v1 of 1024 rows the body forms, for row a of the first and row b of the
  second: the row sums of squares |v0_a|² and |v1_b|² (a lane sum kept as a column, the second one transposed into
  a row, each broadcast over the tile), the product of v0 with the transpose of v1 at (a, b) — the inner product
  ⟨v0_a, v1_b⟩ —, and from these three numbers the entry `kernelOf` of the specification.
-/
import proofs.«171954_j65481071397883_2_alg».proof.Proof.Gen.KernelIdeal.Skeleton
import proofs.«171954_j65481071397883_2_alg».proof.Proof.LibColumnBroadcast
import proofs.«171954_j65481071397883_2_alg».proof.Proof.LibColumnCast
import proofs.«171954_j65481071397883_2_alg».proof.Proof.LibPlainMatmul
import proofs.«171954_j65481071397883_2_alg».proof.Proof.GramSpec
import Idealize.ShloMosaic.Lib.ValueLayout
import Idealize.ShloMosaic.Lib.Pipeline.Value
import Idealize.ShloMosaic.PureOps.Ideal.Laws

noncomputable section

open scoped BigOperators

namespace Cert.KernelIdeal.GramTile

open Cert.KernelIdeal Cert.KernelIdeal.Gen Cert.GramSpec Cert.LibColumnBroadcast Cert.LibColumnCast
open Idealize.ShloMosaic Idealize.ShloMosaic.ValueIdx

/-- The lane sum of the squares of a block's row `a`: the sum over the 64 coordinates. -/
theorem row_squares (v : FVec Ideal S1024x64 .f32) (a : Fin 1024) :
    multiReduction (F := Ideal) .add [1] S1024 (mulf v v) 0x00000000#32 reduces_S1024x64_S1024 (.inl rfl) rfl (ix1 a)
      = ∑ k : Fin 64, v (ix2 a k) * v (ix2 a k) := by
  refine (Ideal.multiReduction_add_single (mulf v v) 0x00000000#32 reduces_S1024x64_S1024 (.inl rfl) rfl (ix1 a)).trans ?_
  refine Finset.sum_congr rfl fun k _ => ?_
  have e : reduces_S1024x64_S1024.lift (ix1 a) k = ix2 a k :=
    funext fun ax => Fin.ext (by match ax with | ⟨0, _⟩ => rfl | ⟨1, _⟩ => rfl)
  rw [e]
  rfl

/-- Kept as a column and broadcast over the tile, it is read at every column `c` of row `a`. -/
theorem column_squares (v : FVec Ideal S1024x64 .f32) (a c : Fin 1024) :
    broadcastTo S1024x1024
        (shapeCast S1024x1 (multiReduction (F := Ideal) .add [1] S1024 (mulf v v) 0x00000000#32 reduces_S1024x64_S1024 (.inl rfl) rfl)
          shapeCasts_S1024_S1024x1)
        broadcasts_S1024x1_S1024x1024 (ix2 a c)
      = ∑ k : Fin 64, v (ix2 a k) * v (ix2 a k) :=
  (broadcastTo_a1_ab_apply _ broadcasts_S1024x1_S1024x1024 a c).trans
    ((shapeCast_a_a1_apply _ shapeCasts_S1024_S1024x1 a (0 : Fin 1)).trans (row_squares v a))

/-- The same column transposed into a row and broadcast over the tile is read at every row `a` of column `c`. -/
theorem row_of_squares (v : FVec Ideal S1024x64 .f32) (a c : Fin 1024) :
    broadcastTo S1024x1024
        (transpose S1x1024 [1, 0]
          (shapeCast S1024x1 (multiReduction (F := Ideal) .add [1] S1024 (mulf v v) 0x00000000#32 reduces_S1024x64_S1024 (.inl rfl) rfl)
            shapeCasts_S1024_S1024x1)
          transposes_S1024x1_p1_0_S1x1024)
        broadcasts_S1x1024_S1024x1024 (ix2 a c)
      = ∑ k : Fin 64, v (ix2 c k) * v (ix2 c k) :=
  (broadcastTo_1b_ab_apply _ broadcasts_S1x1024_S1024x1024 a c).trans
    ((transpose_apply [1, 0] _ transposes_S1024x1_p1_0_S1x1024 (ix2 (0 : Fin 1) c) (ix2 c (0 : Fin 1))
        (fun b => by match b with | ⟨0, _⟩ => rfl | ⟨1, _⟩ => rfl)).trans
      ((shapeCast_a_a1_apply _ shapeCasts_S1024_S1024x1 c (0 : Fin 1)).trans (row_squares v c)))

/-- The product of the first block with the transpose of the second, at (a, b): the inner product of row `a` of the
    first and row `b` of the second. -/
theorem inner_rows (v0 v1 : FVec Ideal S1024x64 .f32) (a b : Fin 1024) :
    matmul (F := Ideal) dot_S1024x64_S64x1024_S1024x1024_1_0_0_1_n_n (some .fp32) v0
        (transpose S64x1024 [1, 0] v1 transposes_S1024x64_p1_0_S64x1024) (constant S1024x1024 .f32 0x00000000#32) (ix2 a b)
      = ∑ k : Fin 64, v0 (ix2 a k) * v1 (ix2 b k) := by
  refine (matmul_plain_zero_apply (m := 1024) (k := 64) (n := 1024) (some .fp32) v0
    (transpose S64x1024 [1, 0] v1 transposes_S1024x64_p1_0_S64x1024) a b).trans ?_
  refine Finset.sum_congr rfl fun k _ => ?_
  rw [transpose_apply [1, 0] v1 transposes_S1024x64_p1_0_S64x1024 (ix2 k b) (ix2 b k)
    (fun ax => by match ax with | ⟨0, _⟩ => rfl | ⟨1, _⟩ => rfl)]

/-- Entry (a, b) of the tile the body stores. -/
theorem tile_entry (v0 v1 : FVec Ideal S1024x64 .f32) (a b : Fin 1024) :
    k0_pay1 (F := Ideal) v0 v1 (ix2 a b)
      = kernelOf (∑ k : Fin 64, v0 (ix2 a k) * v0 (ix2 a k)) (∑ k : Fin 64, v1 (ix2 b k) * v1 (ix2 b k))
          (∑ k : Fin 64, v0 (ix2 a k) * v1 (ix2 b k)) := by
  have h1 := column_squares v0 a b
  have h2 := row_of_squares v1 a b
  have h3 := inner_rows v0 v1 a b
  unfold kernelOf
  rw [← h1, ← h2, ← h3]
  rfl

end Cert.KernelIdeal.GramTile

end
-- ==== Proof.GramValue.lean ====
/-
  From tiles to the whole matrix: what the kernel's result array holds after the run.

  Grid point t = (a, b) hands the body rows [1024a, 1024a + 1024) and rows [1024b, 1024b + 1024) of the input, and
  writes back tile (a, b) of the result: entry (r, s) of that tile is `kernelOf` of the squared lengths of input
  rows 1024a + r and 1024b + s and of their inner product, which is entry (1024a + r, 1024b + s) of the Gram matrix.
  The 64 tiles cover the 8192 × 8192 result — entry (i, j) lies in tile (i / 1024, j / 1024) —, so after the run the
  result IS the Gram matrix of the input.
-/
import proofs.«171954_j65481071397883_2_alg».proof.Proof.GramRun
import proofs.«171954_j65481071397883_2_alg».proof.Proof.GramTile

set_option maxRecDepth 16384

noncomputable section

open scoped BigOperators

namespace Cert.KernelIdeal.GramValue

open Cert.KernelIdeal Cert.KernelIdeal.Gen Cert.KernelIdeal.GramFrame Cert.KernelIdeal.GramTile Cert.GramSpec
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- A tile computed from two row blocks of `X` is the matching tile of the Gram matrix of `X`: if `v0` holds rows
    `1024·i0 + ·` and `v1` rows `1024·i1 + ·` of `X`, entry (a, b) of the tile is entry (p, q) of `gram X` whenever
    `p = 1024·i0 + a` and `q = 1024·i1 + b`. -/
theorem tile_of_gram (X : (⟨2, ![8192, 64]⟩ : Shape).Idx → EReal) (v0 v1 : FVec Ideal S1024x64 .f32) (i0 i1 : Nat)
    (hi0 : i0 < 8) (hi1 : i1 < 8)
    (h0 : ∀ (a : Fin 1024) (k : Fin 64), v0 (ix2 a k) = X (ix2 (⟨i0 * 1024 + a.val, by have := a.isLt; omega⟩ : Fin 8192) k))
    (h1 : ∀ (b : Fin 1024) (k : Fin 64), v1 (ix2 b k) = X (ix2 (⟨i1 * 1024 + b.val, by have := b.isLt; omega⟩ : Fin 8192) k))
    (a b : Fin 1024) (p q : Fin 8192) (hp : p.val = i0 * 1024 + a.val) (hq : q.val = i1 * 1024 + b.val) :
    k0_pay1 (F := Ideal) v0 v1 (ix2 a b) = gram X (ix2 p q) := by
  have ep : p = ⟨i0 * 1024 + a.val, by have := a.isLt; omega⟩ := Fin.ext hp
  have eq : q = ⟨i1 * 1024 + b.val, by have := b.isLt; omega⟩ := Fin.ext hq
  rw [ep, eq]
  refine (tile_entry v0 v1 a b).trans ?_
  rw [gram_apply]
  unfold sqNorm rowDot
  simp only [h0, h1]

/-- The printed index maps over the grid: the first input window's row block is the tile's row block, the second's the
    tile's column block, both at column block 0; the tile's block indices are below 8. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) < 8 ∧ win0_2.index t (1 : Fin 2) < 8 :=
  (by decide +kernel : ∀ t : Fin grid0.N, _)

/-- Every tile is some grid point's. -/
theorem idx_onto : ∀ (q0 : Fin 8) (q1 : Fin 8), ∃ t : Fin cfg0.N, win0_2.index t = ![q0.val, q1.val] :=
  (by decide +kernel : ∀ (q0 : Fin 8) (q1 : Fin 8), ∃ t : Fin grid0.N, win0_2.index t = ![q0.val, q1.val])

/-- What point `t` writes back is tile `t` of the Gram matrix of the input as the region finds it. -/
theorem written_is_gram (c : Dev nD) (t : Fin cfg0.N) :
    (dats m 0 c).flushed 2 t = ((cfg0.win 2).blk t).view.read (Elt Ideal) (gram (entry m c main_arg0)) := by
  show (cfg0.win 2).cut (grid0.coords t) ((dats m 0 c).after 2 t) = _
  rw [after_tile, tile_eq]
  obtain ⟨e0, e1, e2, e3, e4, e5⟩ := idx_facts t
  funext j
  obtain ⟨a, b, rfl⟩ : ∃ (a b : Fin 1024), j = ix2 a b := ⟨j 0, j 1, eq_ix2 j⟩
  show k0_pay1 (F := Ideal) (blockAt m c 0 t) (blockAt m c 1 t) (ix2 a b)
    = gram (entry m c main_arg0) (((cfg0.win 2).blk t).view.emb (ix2 a b))
  have ha := a.isLt
  have hb := b.isLt
  refine (tile_of_gram (entry m c main_arg0) (blockAt m c 0 t) (blockAt m c 1 t)
    (win0_2.index t (0 : Fin 2)) (win0_2.index t (1 : Fin 2)) e4 e5 (fun a k => ?_) (fun b k => ?_) a b
    ⟨win0_2.index t (0 : Fin 2) * 1024 + a.val, by omega⟩ ⟨win0_2.index t (1 : Fin 2) * 1024 + b.val, by omega⟩ rfl rfl).trans ?_
  · show entry m c main_arg0 (((cfg0.win 0).blk t).view.emb (ix2 a k)) = _
    refine congrArg (entry m c main_arg0) (funext fun ax => Fin.ext ?_)
    match ax with
    | ⟨0, _⟩ => show win0_0.index t (0 : Fin 2) * 1024 + 1 * a.val = win0_2.index t (0 : Fin 2) * 1024 + a.val; omega
    | ⟨1, _⟩ => show win0_0.index t (1 : Fin 2) * 64 + 1 * k.val = k.val; omega
  · show entry m c main_arg0 (((cfg0.win 1).blk t).view.emb (ix2 b k)) = _
    refine congrArg (entry m c main_arg0) (funext fun ax => Fin.ext ?_)
    match ax with
    | ⟨0, _⟩ => show win0_1.index t (0 : Fin 2) * 1024 + 1 * b.val = win0_2.index t (1 : Fin 2) * 1024 + b.val; omega
    | ⟨1, _⟩ => show win0_1.index t (1 : Fin 2) * 64 + 1 * k.val = k.val; omega
  · refine congrArg (gram (entry m c main_arg0)) (funext fun ax => Fin.ext ?_)
    match ax with
    | ⟨0, _⟩ => show win0_2.index t (0 : Fin 2) * 1024 + a.val = win0_2.index t (0 : Fin 2) * 1024 + 1 * a.val; omega
    | ⟨1, _⟩ => show win0_2.index t (1 : Fin 2) * 1024 + b.val = win0_2.index t (1 : Fin 2) * 1024 + 1 * b.val; omega

/-- An index of the result is in point `t`'s tile iff each coordinate is in the tile's range on its axis. -/
theorem mem_tile (t : Fin cfg0.N) (i : S8192x8192.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- Every index of the result is in some point's tile: the one at its coordinates divided by 1024. -/
theorem tiles_cover (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_tile]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- After the run the result array is the Gram matrix of the input. -/
theorem result_is_gram (c : Dev nD) : (dats m 0 c).arrAt 2 cfg0.N = gram (entry m c main_arg0) :=
  (dats m 0 c).arrAt_eq_of_cover 2 (gram (entry m c main_arg0)) (fun t _ => written_is_gram m c t) tiles_cover

/-- Every weakly fair execution of the idealized kernel terminates with the result array at the Gram matrix of the
    input and the input unchanged. -/
theorem run : θ_run defs (onTc (τ := τ) (main (F := Ideal))) ⟨m, fun _ => 0, ρ⟩ fun r => ∀ c : Dev nD,
      r.2.mem ((c.tc : Thread nD τ).loc main_v0) = gram (m ((c.tc : Thread nD τ).loc main_arg0))
      ∧ r.2.mem ((c.tc : Thread nD τ).loc main_arg0) = m ((c.tc : Thread nD τ).loc main_arg0) :=
  (θ_run defs _ _).mono (fun r h c => ⟨(h c 2).trans (result_is_gram m c),
      (h c 0).trans (((dats m 0 c).arrAt_in 0 rfl _).trans (A_eq m c 0))⟩)
    (run_region m ρ)

end Cert.KernelIdeal.GramValue

end
-- ==== Proof.Reference.lean ====
/-
  The reference computes the Gram matrix of `GramSpec`.

  Entry (p, q) of the reference's result is read one operation at a time: the row sums of squares at p and at q
  (each the zero initial value plus a sum over the 64 coordinates), the product of the input with its transpose at
  (p, q) (the sum over k of x(p, k) · x(q, k)), then the same subtraction, cut-off, scaling and exponential as the
  specification's `kernelOf`.
-/
import proofs.«171954_j65481071397883_2_alg».proof.Proof.Gen.ReferenceIdeal.Read
import proofs.«171954_j65481071397883_2_alg».proof.Proof.GramSpec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Cert.GramSpec
open Idealize.ShloMosaic Idealize.ShloMosaic.ValueIdx

/-- The reference's result, as a function of its argument, is the Gram matrix. -/
theorem reference_is_gram (x0 : (⟨S8192x64, .f32⟩ : BufTy).Contents (Elt Ideal)) :
    val_main_v16 (F := Ideal) x0 = gram x0 := by
  funext i
  obtain ⟨p, q, rfl⟩ : ∃ (p q : Fin 8192), i = ix2 p q := ⟨i 0, i 1, eq_ix2 i⟩
  have erow : ∀ k : Fin 64, idx_main_v1 (idx_main_v2 (idx_main_v4 (ix2 p q))) k = ix2 p k := fun k =>
    funext fun a => Fin.ext (by match a with | ⟨0, _⟩ => rfl | ⟨1, _⟩ => rfl)
  have ecol : ∀ k : Fin 64, idx_main_v1 (idx_main_v3 (idx_main_v5 (ix2 p q))) k = ix2 q k := fun k =>
    funext fun a => Fin.ext (by match a with | ⟨0, _⟩ => rfl | ⟨1, _⟩ => rfl)
  have el : ∀ k : Fin 64, lidx_main_v8 (ix2 p q) k = ix2 p k := fun k =>
    funext fun a => Fin.ext (by match a with | ⟨0, _⟩ => rfl | ⟨1, _⟩ => rfl)
  have er : ∀ k : Fin 64, idx_main_v7 (ridx_main_v8 (ix2 p q) k) = ix2 q k := fun k =>
    funext fun a => Fin.ext (by match a with | ⟨0, _⟩ => rfl | ⟨1, _⟩ => rfl)
  rw [val_main_v16_apply, val_main_v15_apply, val_main_v14_apply, val_main_cst_2_apply, val_main_v13_apply,
    val_main_v12_apply, val_main_cst_1_apply, val_main_v11_apply, val_main_v6_apply, val_main_v4_apply,
    val_main_v2_apply, val_main_v1_apply, val_main_v5_apply, val_main_v3_apply, val_main_v1_apply,
    val_main_v10_apply, val_main_v9_apply, val_main_cst_0_apply, val_main_v8_apply, val_main_cst_apply]
  simp only [val_main_v0_apply, val_main_v7_apply, erow, ecol, el, er, Ideal.hostUnary_exp_def, Ideal.mulf_def,
    Ideal.maximumf_def, Ideal.subf_def, Ideal.addf_def, Ideal.ofBits_def, Ideal.ofBits_zero_f32, zero_add,
    gram_apply, kernelOf, sqNorm, rowDot]

end Cert.ReferenceIdeal.RefValue

end
-- ==== Proof.lean ====
/-
  The Gaussian Gram matrix kernel against its reference.

  The kernel tiles the 8192 × 8192 matrix K(i, j) = exp(-½ · max(|x_i|² + |x_j|² − 2⟨x_i, x_j⟩, 0)) of the rows of an
  8192 × 64 input into 64 tiles of 1024 × 1024, one per grid point, each computed from the two blocks of 1024 rows it
  needs; the reference computes the whole matrix at once. On the extended reals both are the same function of the
  input, entry by entry (`GramSpec.gram`): the row sums of squares and the inner products are the same sums over the
  64 coordinates on both sides, the constants are the same words, and no law beyond reading each side at an index is
  needed — so finiteness of the input is never used.

  The three frames: the kernel's run, at the word-level values and at the exact ones, is the pipeline's launch with the
  input array shared between its two reading windows (`GramFrame`); the reference's is its run with the result dropped.
  The idealization rewrote nothing, so `preserves` has nothing to say.
-/
import proofs.«171954_j65481071397883_2_alg».proof.Defs
import proofs.«171954_j65481071397883_2_alg».proof.Proof.Gen.Kernel
import proofs.«171954_j65481071397883_2_alg».proof.Proof.Gen.KernelIdeal
import proofs.«171954_j65481071397883_2_alg».proof.Proof.Gen.ReferenceIdeal
import proofs.«171954_j65481071397883_2_alg».proof.Proof.Gen.Pre_finite_inputs
import proofs.«171954_j65481071397883_2_alg».proof.Proof.GramRunBits
import proofs.«171954_j65481071397883_2_alg».proof.Proof.GramValue
import proofs.«171954_j65481071397883_2_alg».proof.Proof.Reference

noncomputable section

namespace Cert.Proof

open Idealize.ShloMosaic Idealize.ShloMosaic.TcCoe Idealize.SL.Sem

/-- The word-level kernel runs to the end and leaves its input as it was. -/
theorem frame_kernel : Cert.frame_Kernel := fun m ρ _ => Cert.Kernel.GramFrame.frame (F := Bits) m ρ

/-- So does the idealized kernel. -/
theorem frame_ideal : Cert.frame_KernelIdeal := fun m ρ _ => Cert.KernelIdeal.GramFrame.frame (F := Ideal) m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the input, the kernel's result array and the reference's both end at the Gram matrix of
    that input. -/
theorem algebraic : Cert.algebraic_KernelIdeal_ReferenceIdeal := by
  intro m ρ m' ρ' _ hagree
  refine ⟨fun c => Cert.GramSpec.gram (m ((c.tc : Thread Cert.KernelIdeal.nD Cert.KernelIdeal.τ).loc Cert.KernelIdeal.main_arg0)),
    Cert.KernelIdeal.GramValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v16_eq, Cert.ReferenceIdeal.RefValue.reference_is_gram, hagree c]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
